-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S5120x4096 : Shape := ⟨2, ![5120, 4096]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S5120x4096 : S_.BroadcastsInDim S5120x4096 (![] : Fin 0 → Fin S5120x4096.rank)
  reducesTo_S5120x4096_S_d0_1 : S5120x4096.ReducesTo [0, 1] S_

variable [Facts]

def fn {F : FTy → Type} [FloatOps F] (main_arg0 : FVec F S4096x4096 .f32) (main_arg1 : FVec F S5120x4096 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S5120x4096 .f32 := Host.absf main_arg1
  let main_cst_0 : FVec F S_ .f32 := constant S_ .f32 0x7F800000#32
  let main_v5 : FVec F S5120x4096 .f32 := broadcastInDim S5120x4096 ![] bcast_S_S5120x4096 main_cst_0
  let main_v6 : IVec S5120x4096 1 := cmpf .olt main_v4 main_v5
  let main_c_1 : IVec S_ 1 := constantI S_ 1 1#1
  let main_v7 : IVec S_ 1 := (fun x v => Host.reduce IntOp.andi x v reducesTo_S5120x4096_S_d0_1 h_S_) main_v6 main_c_1
  let main_v8 : IVec S_ 1 := andi main_v3 main_v7
  main_v8
-- ==== Kernel.lean ====
abbrev S4096x4096 : Shape := ⟨2, ![4096, 4096]⟩
abbrev S5120x4096 : Shape := ⟨2, ![5120, 4096]⟩
abbrev S4096x5120 : Shape := ⟨2, ![4096, 5120]⟩
abbrev S1024x1024 : Shape := ⟨2, ![1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S4096x4096, .f32⟩
  | .hbm, ⟨1, _⟩ => ⟨S5120x4096, .f32⟩
  | .hbm, ⟨2, _⟩ => ⟨S4096x5120, .f32⟩
  | .hbm, ⟨3, _⟩ => ⟨S4096x5120, .bf16⟩
  | .hbm, ⟨4, _⟩ => ⟨S4096x4096, .bf16⟩
  | .hbm, ⟨5, _⟩ => ⟨S4096x5120, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 5, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

class Facts₀ : Prop where
  transposes_S5120x4096_S4096x5120_1_0 : S5120x4096.Transposes [1, 0] S4096x5120
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S4096x4096.size a
  hwx0_0 : ∀ i : grid0.Coords, EltTy.bits .bf16 = 32 ∨ (Rect.block (s := S4096x4096) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x5120.size a
  hwx0_1 : ∀ i : grid0.Coords, EltTy.bits .bf16 = 32 ∨ (Rect.block (s := S4096x5120) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S4096x5120.size a
  hwx0_2 : ∀ i : grid0.Coords, EltTy.bits .f32 = 32 ∨ (Rect.block (s := S4096x5120) S1024x1024.size (cc0_transform_2 i) (hinb0_2 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_v2) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S4096x4096 : Shape := ⟨2, ![4096, 4096]⟩
abbrev S5120x4096 : Shape := ⟨2, ![5120, 4096]⟩
abbrev S4096x5120 : Shape := ⟨2, ![4096, 5120]⟩

abbrev nBuf : Space → Nat
  | .hbm => 3
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S5120x4096, .f32⟩
  | .hbm, ⟨2, _⟩ => ⟨S4096x5120, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]

class Facts₀ : Prop where
  dot_S4096x4096_S5120x4096_S4096x5120_1_1_0_0_n_n_wf : DotDims.WF S4096x4096 S5120x4096 S4096x5120 [1] [1] [0] [0] [] []

variable [Facts₀]

def dot_S4096x4096_S5120x4096_S4096x5120_1_1_0_0_n_n : DotDims S4096x4096 S5120x4096 S4096x5120 where
  lhsContracting := [1]
  rhsContracting := [1]
  lhsNonContracting := [0]
  rhsNonContracting := [0]
  lhsBatch := []
  rhsBatch := []
  wf := dot_S4096x4096_S5120x4096_S4096x5120_1_1_0_0_n_n_wf

class Facts : Prop extends Facts₀ where

variable [Facts]
-- ==== Proof.Spec.lean ====
import Idealize.ShloMosaic.PureOps.Ideal
import Idealize.ShloMosaic.Lib.ValueIdx

/-!
# The specification: a matrix product against a transposed second factor

Both programs compute, from `x : [4096, 4096]` and `a : [5120, 4096]`, the array
`out[b, p] = ∑ₙ x[b, n] · a[p, n]` over the extended reals. The reference contracts the two second
axes directly. The kernel transposes `a`, cuts the rows into 4 bands, the columns into 5 bands and the contraction
axis into four stretches of 1024, visits the 4 · 5 · 4 = 80 triples in row-major order, and for each (row band,
column band) adds the four partial products into an accumulator that starts at zero. The only law that joins the
two readings is that a sum over `Fin 4096` is the sum over the four stretches of the sums inside each stretch,
which holds in any additive commutative monoid — no finiteness of the inputs is needed.
-/

noncomputable section

namespace Cert.MatSpec

open Idealize.ShloMosaic Idealize.ShloMosaic.ValueIdx

/-- The result array as one function of the two argument arrays: entry `(b, p)` is the sum over the shared
    axis of `x[b, n] · a[p, n]`. -/
def prodT (x : (⟨2, ![4096, 4096]⟩ : Shape).Idx → EReal) (a : (⟨2, ![5120, 4096]⟩ : Shape).Idx → EReal) :
    (⟨2, ![4096, 5120]⟩ : Shape).Idx → EReal :=
  fun i => ∑ n : Fin 4096, x (ix2 (i 0) n) * a (ix2 (i 1) n)

/-- Grid point `t` works on row band `t / 20`: the row of the result that local row `p` of its block is. -/
def rowOf (t : ℕ) (p : Fin 1024) : Fin 4096 := ⟨t / 20 % 4 * 1024 + p.val, by have := p.isLt; omega⟩

/-- Grid point `t` works on column band `(t / 4) % 5`: the column of the result that local column `q` is. -/
def colOf (t : ℕ) (q : Fin 1024) : Fin 5120 := ⟨t / 4 % 5 * 1024 + q.val, by have := q.isLt; omega⟩

/-- Grid point `t` works on stretch `t % 4` of the contraction axis: the position that local position `k` is. -/
def midOf (t : ℕ) (k : Fin 1024) : Fin 4096 := ⟨t % 4 * 1024 + k.val, by have := k.isLt; omega⟩

/-- The partial product grid point `t` adds at local entry `(p, q)`. -/
def partialAt (x : (⟨2, ![4096, 4096]⟩ : Shape).Idx → EReal) (a : (⟨2, ![5120, 4096]⟩ : Shape).Idx → EReal)
    (t : ℕ) (j : (⟨2, ![1024, 1024]⟩ : Shape).Idx) : EReal :=
  ∑ k : Fin 1024, x (ix2 (rowOf t (j 0)) (midOf t k)) * a (ix2 (colOf t (j 1)) (midOf t k))

/-- A sum over `Fin 4096` is the sum over its four stretches of length 1024 of the sums inside each stretch. -/
theorem sum_stretches {M : Type*} [AddCommMonoid M] (f : Fin 4096 → M) :
    ∑ n : Fin 4096, f n = ∑ s ∈ Finset.range 4, ∑ k : Fin 1024, f (midOf s k) := by
  rw [← Fin.sum_univ_eq_sum_range (fun s => ∑ k : Fin 1024, f (midOf s k)) 4]
  have h := Equiv.sum_comp (finProdFinEquiv : Fin 4 × Fin 1024 ≃ Fin (4 * 1024)) f
  rw [Fintype.sum_prod_type] at h
  refine Eq.trans h.symm (Finset.sum_congr rfl fun s _ => Finset.sum_congr rfl fun k _ => ?_)
  congr 1
  apply Fin.ext
  show k.val + 1024 * s.val = s.val % 4 * 1024 + k.val
  have := s.isLt
  omega

/-- The four partial products of one run of grid points — the points `4u, 4u + 1, 4u + 2, 4u + 3` share a row band
    and a column band and walk through the four stretches — add up to the whole product at the run's entries. -/
theorem run_total (x : (⟨2, ![4096, 4096]⟩ : Shape).Idx → EReal) (a : (⟨2, ![5120, 4096]⟩ : Shape).Idx → EReal)
    (t : ℕ) (p q : Fin 1024) :
    ∑ s ∈ Finset.range 4, partialAt x a (4 * (t / 4) + s) (ix2 p q) = prodT x a (ix2 (rowOf t p) (colOf t q)) := by
  unfold prodT
  rw [sum_stretches (fun n => x (ix2 (rowOf t p) n) * a (ix2 (colOf t q) n))]
  refine Finset.sum_congr rfl fun s hs => ?_
  have hs4 : s < 4 := Finset.mem_range.mp hs
  unfold partialAt
  refine Finset.sum_congr rfl fun k _ => ?_
  have e1 : rowOf (4 * (t / 4) + s) p = rowOf t p := Fin.ext (by
    show (4 * (t / 4) + s) / 20 % 4 * 1024 + p.val = t / 20 % 4 * 1024 + p.val; omega)
  have e2 : colOf (4 * (t / 4) + s) q = colOf t q := Fin.ext (by
    show (4 * (t / 4) + s) / 4 % 5 * 1024 + q.val = t / 4 % 5 * 1024 + q.val; omega)
  have e3 : midOf (4 * (t / 4) + s) k = midOf s k := Fin.ext (by
    show (4 * (t / 4) + s) % 4 * 1024 + k.val = s % 4 * 1024 + k.val; omega)
  show x (ix2 (rowOf (4 * (t / 4) + s) p) (midOf (4 * (t / 4) + s) k)) * a (ix2 (colOf (4 * (t / 4) + s) q) (midOf (4 * (t / 4) + s) k)) = _
  rw [e1, e2, e3]

end Cert.MatSpec

end
-- ==== Proof.Payload.lean ====
import proofs.«132154_j83305185673615_1_alg».proof.Proof.Gen.KernelIdeal.Skeleton
import Idealize.ShloMosaic.Lib.Pipeline.Value
import Idealize.ShloMosaic.Lib.ValueIdx
import Idealize.ShloMosaic.PureOps.Ideal.Laws

/-!
# One grid step of the kernel, entry by entry, over the extended reals

At every grid point the body stores `acc + lhs · rhs` into its accumulator, where `lhs` and `rhs` are the two
1024 × 1024 input blocks and the product contracts the second axis of `lhs` with the first axis of `rhs`; at the
first point of a run of four it first stores the zero block. Read at entry `(p, q)`:
the zero block is `0`, and the step is `acc[p, q] + ∑ₖ lhs[p, k] · rhs[k, q]`.
-/

noncomputable section

namespace Cert.KernelIdeal.Step

open Cert.KernelIdeal Cert.KernelIdeal.Gen Idealize.ShloMosaic Idealize.ShloMosaic.ValueIdx

/-- The left factor is read at the result's row … -/
theorem lhs_row (j : S1024x1024.Idx) (q : dot_S1024x1024_S1024x1024_S1024x1024_1_0_0_1_n_n.contr.Idx) :
    (dot_S1024x1024_S1024x1024_S1024x1024_1_0_0_1_n_n.lhsIdx j q 0).val = (j 0).val := by
  unfold DotDims.lhsIdx
  rw [dif_neg (show ¬(0 : Fin S1024x1024.rank) ∈ dot_S1024x1024_S1024x1024_S1024x1024_1_0_0_1_n_n.lhsBatch by decide),
    dif_pos (show (0 : Fin S1024x1024.rank) ∈ dot_S1024x1024_S1024x1024_S1024x1024_1_0_0_1_n_n.lhsNonContracting by decide)]
  rfl

/-- … and at the contraction position in its second axis. -/
theorem lhs_col (j : S1024x1024.Idx) (q : dot_S1024x1024_S1024x1024_S1024x1024_1_0_0_1_n_n.contr.Idx) :
    (dot_S1024x1024_S1024x1024_S1024x1024_1_0_0_1_n_n.lhsIdx j q 1).val = (q ⟨0, by decide⟩).val :=
  dot_S1024x1024_S1024x1024_S1024x1024_1_0_0_1_n_n.lhsIdx_val_of_single rfl j q

/-- The right factor is read at the contraction position in its first axis … -/
theorem rhs_row (j : S1024x1024.Idx) (q : dot_S1024x1024_S1024x1024_S1024x1024_1_0_0_1_n_n.contr.Idx) :
    (dot_S1024x1024_S1024x1024_S1024x1024_1_0_0_1_n_n.rhsIdx j q 0).val = (q ⟨0, by decide⟩).val :=
  dot_S1024x1024_S1024x1024_S1024x1024_1_0_0_1_n_n.rhsIdx_val_of_single rfl j q

/-- … and at the result's column. -/
theorem rhs_col (j : S1024x1024.Idx) (q : dot_S1024x1024_S1024x1024_S1024x1024_1_0_0_1_n_n.contr.Idx) :
    (dot_S1024x1024_S1024x1024_S1024x1024_1_0_0_1_n_n.rhsIdx j q 1).val = (j 1).val := by
  unfold DotDims.rhsIdx
  rw [dif_neg (show ¬(1 : Fin S1024x1024.rank) ∈ dot_S1024x1024_S1024x1024_S1024x1024_1_0_0_1_n_n.rhsBatch by decide),
    dif_pos (show (1 : Fin S1024x1024.rank) ∈ dot_S1024x1024_S1024x1024_S1024x1024_1_0_0_1_n_n.rhsNonContracting by decide)]
  rfl

/-- The block the first point of a run stores into the accumulator is zero everywhere. -/
theorem zero_apply (j : S1024x1024.Idx) : k0_pay1 (F := Ideal) j = 0 := by
  unfold k0_pay1
  simp only [shapeCast_self]
  show Ideal.ofBits .f32 0x00000000#32 = 0
  exact Ideal.ofBits_zero_f32

/-- One step at entry `(p, q)`: the accumulator's entry plus the product of row `p` of the left block with
    column `q` of the right block. -/
theorem step_apply (acc : Vec Ideal S1024x1024 .f32) (lhs rhs : Vec Ideal S1024x1024 .bf16) (p q : Fin 1024) :
    k0_pay2 (F := Ideal) acc lhs rhs (ix2 p q) = acc (ix2 p q) + ∑ k : Fin 1024, lhs (ix2 p k) * rhs (ix2 k q) := by
  unfold k0_pay2
  simp only [shapeCast_self, matmul]
  rw [addf_apply, Ideal.matmul_constant_zero_apply,
    ← Equiv.sum_comp (contrEquiv1 dot_S1024x1024_S1024x1024_S1024x1024_1_0_0_1_n_n 1024 rfl rfl).symm]
  refine congrArg (acc (ix2 p q) + ·) (Finset.sum_congr rfl fun k _ => ?_)
  have hk := contrEquiv1_symm_val dot_S1024x1024_S1024x1024_S1024x1024_1_0_0_1_n_n 1024 rfl rfl k
  have el : dot_S1024x1024_S1024x1024_S1024x1024_1_0_0_1_n_n.lhsIdx (ix2 p q)
      ((contrEquiv1 dot_S1024x1024_S1024x1024_S1024x1024_1_0_0_1_n_n 1024 rfl rfl).symm k) = ix2 p k := funext fun a => Fin.ext (by
    match a with
    | ⟨0, _⟩ => exact lhs_row _ _
    | ⟨1, _⟩ => exact (lhs_col _ _).trans hk)
  have er : dot_S1024x1024_S1024x1024_S1024x1024_1_0_0_1_n_n.rhsIdx (ix2 p q)
      ((contrEquiv1 dot_S1024x1024_S1024x1024_S1024x1024_1_0_0_1_n_n 1024 rfl rfl).symm k) = ix2 k q := funext fun a => Fin.ext (by
    match a with
    | ⟨0, _⟩ => exact (rhs_row _ _).trans hk
    | ⟨1, _⟩ => exact rhs_col _ _)
  rw [el, er]

end Cert.KernelIdeal.Step

end
-- ==== Proof.Pieces.lean ====
import proofs.«132154_j83305185673615_1_alg».proof.Proof.Gen.KernelIdeal.Frame
import Idealize.ShloMosaic.Lib.Pipeline.Value
import Idealize.ShloMosaic.Lib.Tactic

/-!
# What one run of the body leaves behind, as values

The body always finishes with one store that covers the whole accumulator, and the stored block is one step
`acc + lhs · rhs` of what the accumulator held when the step began:

* at the first point of a run of four the accumulator was just overwritten with the zero block, so the step starts
  from zero;
* at the other points it starts from what the point before left;
* at the last point of a run the body then copies the accumulator into the output block, so the output block holds
  the same step.

Each statement is for any float instance and for any whole staging buffers.
-/

noncomputable section

namespace Cert.KernelIdeal.Step

open Cert.KernelIdeal Cert.KernelIdeal.Gen Idealize.ShloMosaic Idealize.ShloMosaic.TcCoe Idealize.SL.Sem

variable {F : FTy → Type} [FloatOps F]

theorem origin : (![0, 0] : Fin 2 → Nat) = fun _ => 0 := funext fun a => by fin_cases a <;> rfl

/-- First point of a run: the accumulator ends at one step from the zero block. -/
theorem acc_first (c : Dev nD) (i : grid0.Coords) (a3 : Memref sig .tc .vmem S1024x1024 .bf16) (h3 : a3.IsWhole)
    (a4 : Memref sig .tc .vmem S1024x1024 .bf16) (h4 : a4.IsWhole) (a5 : Memref sig .tc .vmem S1024x1024 .f32) (h5 : a5.IsWhole)
    (a6 : Memref sig .tc .vmem S1024x1024 .f32) (h6 : a6.IsWhole) (hc0 : cond0_0 i) (hc1 : ¬cond0_1 i)
    (x0 x1 : Vec F S1024x1024 .bf16) :
    sout0_A_0 c i a3 h3 a4 h4 a5 h5 a6 h6 hc0 hc1 x0 x1 = k0_pay2 (k0_pay1 (F := F)) x0 x1 := by
  unfold sout0_A_0
  rw [View.read_writes_eq_canon _ _ _ (scover0_A_0 c i a3 h3 a4 h4 a5 h5 a6 h6 hc0 hc1 x0 x1)]
  unfold kernelRun0_A
  dsimp only
  sl_unfold_words
  rw [View.canon_cons_unit_zero (S := S1024x1024) origin, View.readCov_unit_zero (S := S1024x1024) _ origin]
  simp only [View.readAt_eq_ld, h3.read_unread, h4.read_unread, View.ld_unit_zero (S := S1024x1024) origin]

/-- A middle point of a run: the accumulator ends at one step from what it held. -/
theorem acc_middle (c : Dev nD) (i : grid0.Coords) (a3 : Memref sig .tc .vmem S1024x1024 .bf16) (h3 : a3.IsWhole)
    (a4 : Memref sig .tc .vmem S1024x1024 .bf16) (h4 : a4.IsWhole) (a5 : Memref sig .tc .vmem S1024x1024 .f32) (h5 : a5.IsWhole)
    (a6 : Memref sig .tc .vmem S1024x1024 .f32) (h6 : a6.IsWhole) (hc0 : ¬cond0_0 i) (hc1 : ¬cond0_1 i)
    (x0 x1 : Vec F S1024x1024 .bf16) (xs0 : Vec F S1024x1024 .f32) :
    sout0_B_0 c i a3 h3 a4 h4 a5 h5 a6 h6 hc0 hc1 x0 x1 xs0 = k0_pay2 xs0 x0 x1 := by
  unfold sout0_B_0
  rw [View.read_writes_eq_canon _ _ _ (scover0_B_0 c i a3 h3 a4 h4 a5 h5 a6 h6 hc0 hc1 x0 x1 xs0)]
  unfold kernelRun0_B
  dsimp only
  rw [View.canon_unit_zero origin]
  simp only [View.readAt_eq_ld, h3.read_unread, h4.read_unread, h6.read_unread, View.ld_unit_zero (S := S1024x1024) origin]

/-- The last point of a run: the accumulator ends at one step from what it held … -/
theorem acc_last (c : Dev nD) (i : grid0.Coords) (a3 : Memref sig .tc .vmem S1024x1024 .bf16) (h3 : a3.IsWhole)
    (a4 : Memref sig .tc .vmem S1024x1024 .bf16) (h4 : a4.IsWhole) (a5 : Memref sig .tc .vmem S1024x1024 .f32) (h5 : a5.IsWhole)
    (a6 : Memref sig .tc .vmem S1024x1024 .f32) (h6 : a6.IsWhole) (hc0 : ¬cond0_0 i) (hc1 : cond0_1 i)
    (x0 x1 : Vec F S1024x1024 .bf16) (xs0 : Vec F S1024x1024 .f32) :
    sout0_C_0 c i a3 h3 a4 h4 a5 h5 a6 h6 hc0 hc1 x0 x1 xs0 = k0_pay2 xs0 x0 x1 := by
  unfold sout0_C_0
  rw [View.read_writes_eq_canon _ _ _ (scover0_C_0 c i a3 h3 a4 h4 a5 h5 a6 h6 hc0 hc1 x0 x1 xs0)]
  unfold kernelRun0_C
  dsimp only
  sl_unfold_words
  rw [View.canon_unit_zero origin]
  simp only [View.readAt_eq_ld, h3.read_unread, h4.read_unread, h6.read_unread, View.ld_unit_zero (S := S1024x1024) origin]

/-- … and the output block is a copy of it. -/
theorem out_last (c : Dev nD) (i : grid0.Coords) (a3 : Memref sig .tc .vmem S1024x1024 .bf16) (h3 : a3.IsWhole)
    (a4 : Memref sig .tc .vmem S1024x1024 .bf16) (h4 : a4.IsWhole) (a5 : Memref sig .tc .vmem S1024x1024 .f32) (h5 : a5.IsWhole)
    (a6 : Memref sig .tc .vmem S1024x1024 .f32) (h6 : a6.IsWhole) (hc0 : ¬cond0_0 i) (hc1 : cond0_1 i)
    (x0 x1 : Vec F S1024x1024 .bf16) (xs0 : Vec F S1024x1024 .f32) :
    out0_C_2 c i a3 h3 a4 h4 a5 h5 a6 h6 hc0 hc1 x0 x1 xs0 = k0_pay2 xs0 x0 x1 := by
  unfold out0_C_2
  rw [View.read_writes_eq_canon _ _ _ (cover0_C_2 c i a3 h3 a4 h4 a5 h5 a6 h6 hc0 hc1 x0 x1 xs0)]
  unfold kernelRun0_C
  dsimp only
  sl_unfold_words
  rw [View.canon_unit_zero origin, View.readCov_unit_zero (S := S1024x1024) _ origin]
  simp only [View.readAt_eq_ld, h3.read_unread, h4.read_unread, h6.read_unread, View.ld_unit_zero (S := S1024x1024) origin]

end Cert.KernelIdeal.Step

end
-- ==== Proof.Blocks.lean ====
import proofs.«132154_j83305185673615_1_alg».proof.Proof.Gen.KernelIdeal.Frame
import proofs.«132154_j83305185673615_1_alg».proof.Proof.Spec
import Idealize.ShloMosaic.Lib.Pipeline.Value
import Idealize.ShloMosaic.Lib.StableHlo.Run
import Idealize.ShloMosaic.Lib.ValueIdx
import Idealize.ShloMosaic.Lib.Tactic

/-!
# The two input blocks of a grid point, read entry by entry from the argument arrays

Before the grid starts the program casts `x` to the narrower format (the identity over the extended reals) and
transposes `a` and casts it likewise. At grid point `t` the left block is rows `rowOf t ·`, columns
`midOf t ·` of the cast `x`, and the right block is rows `midOf t ·`, columns `colOf t ·` of the cast
transpose of `a` — that is, entry `(colOf t q, midOf t k)` of `a` itself.
-/

noncomputable section

namespace Cert.KernelIdeal.Step

open Cert.KernelIdeal Cert.KernelIdeal.Gen Idealize.ShloMosaic Idealize.ShloMosaic.TcCoe Idealize.SL.Sem
open Idealize.ShloMosaic.ValueIdx Cert.MatSpec

section AnyFloat
variable {F : FTy → Type} [FloatOps F]
variable (m : (ℓ : Loc nD τ sig) → Buf (Elt F) ℓ)

/-- What the grid finds in the left operand's array: the cast of `x`. -/
theorem lhs_array (c : Dev nD) : (V m c main_v2 : Vec F S4096x4096 .bf16)
    = truncf .bf16 (m ((c : Thread nD τ).loc main_arg0)) bitsLt_bf16_f32 := by
  dsimp only [Gen.V, Gen.hostOps0]; after_results

/-- What the grid finds in the right operand's array: the cast of the transpose of `a`. -/
theorem rhs_array (c : Dev nD) : (V m c main_v1 : Vec F S4096x5120 .bf16)
    = truncf .bf16 (transpose S4096x5120 [1, 0] (m ((c : Thread nD τ).loc main_arg1)) transposes_S5120x4096_S4096x5120_1_0) bitsLt_bf16_f32 := by
  dsimp only [Gen.V, Gen.hostOps0]; after_results

end AnyFloat

/-- Which block of the left operand grid point `t` reads: row band `t / 20`, stretch `t % 4`. -/
theorem lhs_band : ∀ t : Fin cfg0.N, win0_0.index t (0 : Fin 2) = t.val / 20 % 4 ∧ win0_0.index t (1 : Fin 2) = t.val % 4 :=
  (by decide +kernel : ∀ t : Fin grid0.N, _)
/-- Which block of the right operand it reads: stretch `t % 4`, column band `(t / 4) % 5`. -/
theorem rhs_band : ∀ t : Fin cfg0.N, win0_1.index t (0 : Fin 2) = t.val % 4 ∧ win0_1.index t (1 : Fin 2) = t.val / 4 % 5 :=
  (by decide +kernel : ∀ t : Fin grid0.N, _)
/-- Which block of the result it works on: row band `t / 20`, column band `(t / 4) % 5`. -/
theorem out_band : ∀ t : Fin cfg0.N, win0_2.index t (0 : Fin 2) = t.val / 20 % 4 ∧ win0_2.index t (1 : Fin 2) = t.val / 4 % 5 :=
  (by decide +kernel : ∀ t : Fin grid0.N, _)

variable (m : (ℓ : Loc nD τ sig) → Buf (Elt Ideal) ℓ)

/-- The left block at local entry `(p, k)` is `x[rowOf t p, midOf t k]`. -/
theorem lhs_block_apply (c : Dev nD) (t : Fin cfg0.N) (p k : Fin 1024) :
    (iblk m c 0 t : Vec Ideal S1024x1024 .bf16) (ix2 p k)
      = m ((c : Thread nD τ).loc main_arg0) (ix2 (rowOf t.val p) (midOf t.val k)) := by
  unfold iblk
  rw [View.read_apply]
  show V m c main_v2 _ = _
  refine (congrFun (lhs_array m c) _).trans ?_
  show m ((c : Thread nD τ).loc main_arg0) _ = m ((c : Thread nD τ).loc main_arg0) _
  congr 1
  funext a
  apply Fin.ext
  match a with
  | ⟨0, _⟩ => show win0_0.index t 0 * 1024 + 1 * p.val = t.val / 20 % 4 * 1024 + p.val; rw [(lhs_band t).1]; omega
  | ⟨1, _⟩ => show win0_0.index t 1 * 1024 + 1 * k.val = t.val % 4 * 1024 + k.val; rw [(lhs_band t).2]; omega

/-- The right block at local entry `(k, q)` is `a[colOf t q, midOf t k]`. -/
theorem rhs_block_apply (c : Dev nD) (t : Fin cfg0.N) (k q : Fin 1024) :
    (iblk m c 1 t : Vec Ideal S1024x1024 .bf16) (ix2 k q)
      = m ((c : Thread nD τ).loc main_arg1) (ix2 (colOf t.val q) (midOf t.val k)) := by
  unfold iblk
  rw [View.read_apply]
  show V m c main_v1 _ = _
  refine (congrFun (rhs_array m c) _).trans ?_
  show transpose S4096x5120 [1, 0] (m ((c : Thread nD τ).loc main_arg1)) transposes_S5120x4096_S4096x5120_1_0 _ = _
  refine transpose_apply _ _ _ _ _ fun b => ?_
  match b with
  | ⟨0, _⟩ => show t.val % 4 * 1024 + k.val = win0_1.index t 0 * 1024 + 1 * k.val; rw [(rhs_band t).1]; omega
  | ⟨1, _⟩ => show t.val / 4 % 5 * 1024 + q.val = win0_1.index t 1 * 1024 + 1 * q.val; rw [(rhs_band t).2]; omega

end Cert.KernelIdeal.Step

end
-- ==== Proof.Fold.lean ====
import proofs.«132154_j83305185673615_1_alg».proof.Proof.Gen.KernelIdeal.Value
import proofs.«132154_j83305185673615_1_alg».proof.Proof.Spec
import proofs.«132154_j83305185673615_1_alg».proof.Proof.Payload
import proofs.«132154_j83305185673615_1_alg».proof.Proof.Pieces
import proofs.«132154_j83305185673615_1_alg».proof.Proof.Blocks
import Idealize.ShloMosaic.Lib.Pipeline.Value
import Idealize.ShloMosaic.Lib.ValueIdx

/-!
# The accumulator along a run of four grid points, and the block the run's last point writes

A run is four consecutive grid points `4u … 4u + 3`: the same row band and column band, the four stretches of the
contraction axis in order. After point `4u + r` the accumulator's entry `(p, q)` is `0` plus the partial
products of points `4u … 4u + r` at that entry; after the last point of the run all four stretches are in, the
output block is a copy of the accumulator, and its entry `(p, q)` is therefore the whole product at
`(rowOf t p, colOf t q)`.
-/

noncomputable section

namespace Cert.KernelIdeal.Step

open Cert.KernelIdeal Cert.KernelIdeal.Gen Idealize.ShloMosaic Idealize.ShloMosaic.TcCoe Idealize.SL.Sem
open Idealize.ShloMosaic.ValueIdx Cert.MatSpec

/-- What grid point `n` leaves in the accumulator over what it held: one step, started from the zero block at the first
    point of a run and from the held contents elsewhere. For any float instance. -/
theorem point_step {F : FTy → Type} [FloatOps F] (m : (ℓ : Loc nD τ sig) → Buf (Elt F) ℓ) (c : Dev nD) (n : ℕ)
    (h : n < cfg0.N) (acc : Vec F S1024x1024 .f32) :
    Value.scAt0_0 m c n h acc
      = k0_pay2 (if n % 4 = 0 then k0_pay1 (F := F) else acc) (iblk m c 0 ⟨n, h⟩) (iblk m c 1 ⟨n, h⟩) := by
  unfold Value.scAt0_0
  by_cases h0 : n % 4 = 0
  · have h1 : ¬n % 4 = 3 := by omega
    rw [dif_pos h0, dif_neg h1, if_pos h0]
    exact acc_first c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) scM0_0 (Memref.isWhole_whole _) _ _ (iblk m c 0 ⟨n, h⟩) (iblk m c 1 ⟨n, h⟩)
  · rw [dif_neg h0, if_neg h0]
    by_cases h1 : n % 4 = 3
    · rw [dif_pos h1]
      exact acc_last c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) scM0_0 (Memref.isWhole_whole _) _ _ (iblk m c 0 ⟨n, h⟩) (iblk m c 1 ⟨n, h⟩) acc
    · rw [dif_neg h1]
      exact acc_middle c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) scM0_0 (Memref.isWhole_whole _) _ _ (iblk m c 0 ⟨n, h⟩) (iblk m c 1 ⟨n, h⟩) acc

variable (m : (ℓ : Loc nD τ sig) → Buf (Elt Ideal) ℓ)

/-- The same at entry `(p, q)` over the extended reals: the start value's entry plus the point's partial product. -/
theorem point_step_apply (c : Dev nD) (n : ℕ) (h : n < cfg0.N) (acc : Vec Ideal S1024x1024 .f32) (p q : Fin 1024) :
    Value.scAt0_0 m c n h acc (ix2 p q)
      = (if n % 4 = 0 then 0 else acc (ix2 p q))
        + partialAt (m ((c : Thread nD τ).loc main_arg0)) (m ((c : Thread nD τ).loc main_arg1)) n (ix2 p q) := by
  rw [point_step]
  refine (step_apply _ _ _ p q).trans ?_
  congr 1
  · by_cases h0 : n % 4 = 0
    · rw [if_pos h0, if_pos h0]; exact zero_apply _
    · rw [if_neg h0, if_neg h0]
  · unfold partialAt
    refine Finset.sum_congr rfl fun k _ => ?_
    rw [lhs_block_apply m c ⟨n, h⟩ p k, rhs_block_apply m c ⟨n, h⟩ k q]

/-- The accumulator after grid point `t`, entry by entry: zero plus the partial products of the run so far. -/
theorem acc_after (c : Dev nD) (t : Fin cfg0.N) (p q : Fin 1024) :
    (outsAt0 m c t.val t.isLt).2 (ix2 p q)
      = 0 + ∑ s ∈ Finset.range (t.val % 4 + 1),
          partialAt (m ((c : Thread nD τ).loc main_arg0)) (m ((c : Thread nD τ).loc main_arg1)) (4 * (t.val / 4) + s) (ix2 p q) := by
  refine (congrFun (Value.soutsAt0_0_eq m c t) (ix2 p q)).trans ?_
  refine Pipeline.accAt_add_apply (ι := S1024x1024.Idx) (β := EReal) _ _ (fun _ => 0)
    (fun n => partialAt (m ((c : Thread nD τ).loc main_arg0)) (m ((c : Thread nD τ).loc main_arg1)) n) (4 * (t.val / 4)) 3
    (fun h i => ?_) (fun n h acc i hlo hhi => ?_) (t.val % 4) (by omega) _ (ix2 p q)
  · obtain ⟨p', q', rfl⟩ : ∃ (p' q' : Fin 1024), i = ix2 p' q' := ⟨i 0, i 1, eq_ix2 i⟩
    rw [point_step_apply, if_pos (by omega)]
  · obtain ⟨p', q', rfl⟩ : ∃ (p' q' : Fin 1024), i = ix2 p' q' := ⟨i 0, i 1, eq_ix2 i⟩
    rw [point_step_apply, if_neg (by omega)]

/-- At the last point of a run the output block is the accumulator. -/
theorem out_eq_acc (c : Dev nD) (t : Fin cfg0.N) (h3 : t.val % 4 = 3) :
    (outsAt0 m c t.val t.isLt).1 = (outsAt0 m c t.val t.isLt).2 := by
  have h0 : ¬t.val % 4 = 0 := by omega
  rw [outsAt0_C m c t h0 h3]
  dsimp only
  rw [out_last, acc_last]

/-- So the block the last point of a run writes back holds, at local entry `(p, q)`, the whole product at the
    entry of the result it stands for. -/
theorem out_at_last (c : Dev nD) (t : Fin cfg0.N) (h3 : t.val % 4 = 3) (p q : Fin 1024) :
    (outsAt0 m c t.val t.isLt).1 (ix2 p q)
      = prodT (m ((c : Thread nD τ).loc main_arg0)) (m ((c : Thread nD τ).loc main_arg1)) (ix2 (rowOf t.val p) (colOf t.val q)) := by
  rw [out_eq_acc m c t h3, acc_after, h3, zero_add]
  exact run_total _ _ t.val p q

end Cert.KernelIdeal.Step

end
-- ==== Proof.KernelValue.lean ====
import proofs.«132154_j83305185673615_1_alg».proof.Proof.Gen.KernelIdeal.Value
import proofs.«132154_j83305185673615_1_alg».proof.Proof.Spec
import proofs.«132154_j83305185673615_1_alg».proof.Proof.Fold
import Idealize.ShloMosaic.Lib.Pipeline.Value
import Idealize.ShloMosaic.Lib.ValueIdx

/-!
# The kernel's result array is the product

The result is written back once per run of four grid points, at the run's last point `t` (`t % 4 = 3`), into block
(row band, column band) of the result; local entry `(p, q)` of that block is entry `(rowOf t p, colOf t q)` of the
array, and what is written there is the whole product at that entry. The twenty written blocks tile the
4096 × 5120 result: entry `(r, s)` lies in the block of the run with row band `r / 1024` and column band `s / 1024`.
So after the grid the result array is `prodT x a`.
-/

noncomputable section

namespace Cert.KernelIdeal.Step

open Cert.KernelIdeal Cert.KernelIdeal.Gen Idealize.ShloMosaic Idealize.ShloMosaic.TcCoe Idealize.SL.Sem
open Idealize.ShloMosaic.Pipeline (Dat)
open Idealize.ShloMosaic.ValueIdx Cert.MatSpec

variable (m : (ℓ : Loc nD τ sig) → Buf (Elt Ideal) ℓ) (ρ : Dev nD → PrngReg)

/-- The product of the two argument arrays as launched, as contents of the result array. -/
abbrev product (c : Dev nD) : Buf (Elt Ideal) ((c : Thread nD τ).loc main_v3) :=
  prodT (m ((c : Thread nD τ).loc main_arg0)) (m ((c : Thread nD τ).loc main_arg1))

/-- What a writing point writes back is its block of the product. -/
theorem written_eq (c : Dev nD) (t : Fin cfg0.N) (hf : (cfg0.win 2).flush t = true) :
    (dats m 0 c).flushed 2 t = ((cfg0.win 2).blk t).view.read (Elt Ideal) (product m c) := by
  have h3 : t.val % 4 = 3 := (flush0_2 t).mp hf
  rw [Value.flushed2]
  funext j
  show (outsAt0 m c t.val t.isLt).1 j = product m c (((cfg0.win 2).blk t).view.emb j)
  obtain ⟨p, q, rfl⟩ : ∃ (p q : Fin 1024), j = ix2 p q := ⟨j 0, j 1, eq_ix2 j⟩
  rw [out_at_last m c t h3 p q]
  show prodT _ _ _ = prodT _ _ _
  congr 1
  funext a
  apply Fin.ext
  match a with
  | ⟨0, _⟩ => show t.val / 20 % 4 * 1024 + p.val = win0_2.index t 0 * 1024 + 1 * p.val; rw [(out_band t).1]; omega
  | ⟨1, _⟩ => show t.val / 4 % 5 * 1024 + q.val = win0_2.index t 1 * 1024 + 1 * q.val; rw [(out_band t).2]; omega

/-- An entry of the result is in point `t`'s block iff each coordinate is in the block's range on its axis. -/
theorem mem_block (t : Fin cfg0.N) (i : S4096x5120.Idx) :
    i ∈ ((cfg0.win 2).blk t).view.set ↔ ∀ a : Fin 2, win0_2.index t a * S1024x1024.size a ≤ (i a).val
      ∧ (i a).val < win0_2.index t a * S1024x1024.size a + S1024x1024.size a := by
  show i ∈ ((View.whole main_v3).slice (win0_2.rect t)).set ↔ _
  rw [View.set_slice_whole, Rect.mem_set_unit]
  exact Iff.rfl

/-- Every entry of the result is in the block some writing point writes. -/
theorem tiled (i : S4096x5120.Idx) :
    ∃ t : Fin cfg0.N, (cfg0.win 2).flush t = true ∧ i ∈ ((cfg0.win 2).blk t).view.set := by
  have hi0 : (i 0).val < 4096 := (i 0).isLt
  have hi1 : (i 1).val < 5120 := (i 1).isLt
  have hN : cfg0.N = 80 := N_0
  refine ⟨⟨((i 0).val / 1024 * 5 + (i 1).val / 1024) * 4 + 3, by rw [hN]; omega⟩, (flush0_2 _).mpr (by show (((i 0).val / 1024 * 5 + (i 1).val / 1024) * 4 + 3) % 4 = 3; omega), ?_⟩
  rw [mem_block]
  intro a
  match a with
  | ⟨0, _⟩ =>
    show win0_2.index _ 0 * 1024 ≤ (i 0).val ∧ (i 0).val < win0_2.index _ 0 * 1024 + 1024
    rw [(out_band _).1]
    show (((i 0).val / 1024 * 5 + (i 1).val / 1024) * 4 + 3) / 20 % 4 * 1024 ≤ (i 0).val ∧ (i 0).val < (((i 0).val / 1024 * 5 + (i 1).val / 1024) * 4 + 3) / 20 % 4 * 1024 + 1024
    omega
  | ⟨1, _⟩ =>
    show win0_2.index _ 1 * 1024 ≤ (i 1).val ∧ (i 1).val < win0_2.index _ 1 * 1024 + 1024
    rw [(out_band _).2]
    show (((i 0).val / 1024 * 5 + (i 1).val / 1024) * 4 + 3) / 4 % 5 * 1024 ≤ (i 1).val ∧ (i 1).val < (((i 0).val / 1024 * 5 + (i 1).val / 1024) * 4 + 3) / 4 % 5 * 1024 + 1024
    omega

/-- After the grid the result array holds the product. -/
theorem result_eq (c : Dev nD) : (dats m 0 c).arrAt 2 cfg0.N = product m c :=
  (dats m 0 c).arrAt_eq_of_cover 2 (product m c) (written_eq m c) tiled

/-- Every weakly fair execution of the kernel's program ends with the result array at the product of the
    arguments as launched, and the arguments unchanged. -/
theorem run : θ_run defs (onTc (τ := τ) (main (F := Ideal))) ⟨m, fun _ => 0, ρ⟩ fun r => ∀ c : Dev nD,
      r.2.mem ((c : Thread nD τ).loc main_v3) = product m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (result_eq m c), (h c).2⟩) (Value.run_blocks m ρ)

end Cert.KernelIdeal.Step

end
-- ==== Proof.RefValue.lean ====
import proofs.«132154_j83305185673615_1_alg».proof.Proof.Gen.ReferenceIdeal.Read
import proofs.«132154_j83305185673615_1_alg».proof.Proof.Spec
import Idealize.ShloMosaic.Lib.ValueIdx

/-!
# The reference's result is the product

The reference is one contraction of the second axis of `x` with the second axis of `a`; read at entry `(b, p)`
over the extended reals it is `∑ₙ x[b, n] · a[p, n]`, which is the specification verbatim.
-/

noncomputable section

namespace Cert.ReferenceIdeal.Contraction

open Cert.ReferenceIdeal Cert.ReferenceIdeal.Gen Idealize.ShloMosaic Idealize.ShloMosaic.ValueIdx Cert.MatSpec

theorem result_eq (x : (⟨S4096x4096, .f32⟩ : BufTy).Contents (Elt Ideal)) (a : (⟨S5120x4096, .f32⟩ : BufTy).Contents (Elt Ideal)) :
    Read.val_main_v0 (F := Ideal) x a = prodT x a := by
  funext i
  rw [Read.val_main_v0_apply]
  unfold prodT
  refine Finset.sum_congr rfl fun k _ => ?_
  have el : Read.lidx_main_v0 i k = ix2 (i 0) k := funext fun b => by match b with | ⟨0, _⟩ => rfl | ⟨1, _⟩ => rfl
  have er : Read.ridx_main_v0 i k = ix2 (i 1) k := funext fun b => by match b with | ⟨0, _⟩ => rfl | ⟨1, _⟩ => rfl
  rw [el, er]
  rfl

end Cert.ReferenceIdeal.Contraction

end
-- ==== Proof.lean ====
/- The kernel and its reference both compute `out[b, p] = ∑ₙ x[b, n] · a[p, n]` from `x : [4096, 4096]` and
   `a : [5120, 4096]`, over the extended reals.

   The reference contracts the two second axes in one operation. The kernel casts `x`, transposes and casts `a`
   (both casts are the identity over the extended reals), and walks a 4 × 5 × 4 grid of (row band, column band,
   stretch of the contraction axis): along each run of four stretches it adds the 1024 × 1024 partial products into an
   accumulator zeroed at the run's first point, and at the run's last point copies the accumulator into the
   (row band, column band) block of the result. The two agree because a sum over `Fin 4096` is the sum over its four
   stretches of 1024 of the sums inside each stretch — a law of any additive commutative monoid, so the inputs'
   finiteness is never used.

   The idealization rewrote no operation, so the kernel's idealization is its own text and the `preserves` conjunct is `True`.
   The three frame conjuncts are the programs' runs with the result dropped. -/
import proofs.«132154_j83305185673615_1_alg».proof.Defs
import proofs.«132154_j83305185673615_1_alg».proof.Proof.Gen.Kernel
import proofs.«132154_j83305185673615_1_alg».proof.Proof.Gen.Kernel.Skeleton
import proofs.«132154_j83305185673615_1_alg».proof.Proof.Gen.Kernel.Launch
import proofs.«132154_j83305185673615_1_alg».proof.Proof.Gen.Kernel.Points
import proofs.«132154_j83305185673615_1_alg».proof.Proof.Gen.Kernel.Frame
import proofs.«132154_j83305185673615_1_alg».proof.Proof.Gen.KernelIdeal
import proofs.«132154_j83305185673615_1_alg».proof.Proof.Gen.KernelIdeal.Skeleton
import proofs.«132154_j83305185673615_1_alg».proof.Proof.Gen.KernelIdeal.Launch
import proofs.«132154_j83305185673615_1_alg».proof.Proof.Gen.KernelIdeal.Points
import proofs.«132154_j83305185673615_1_alg».proof.Proof.Gen.KernelIdeal.Frame
import proofs.«132154_j83305185673615_1_alg».proof.Proof.Gen.ReferenceIdeal
import proofs.«132154_j83305185673615_1_alg».proof.Proof.Gen.Pre_finite_inputs
import proofs.«132154_j83305185673615_1_alg».proof.Proof.Gen.KernelIdeal.Value
import proofs.«132154_j83305185673615_1_alg».proof.Proof.Gen.ReferenceIdeal.Run
import proofs.«132154_j83305185673615_1_alg».proof.Proof.Gen.ReferenceIdeal.Read
import proofs.«132154_j83305185673615_1_alg».proof.Proof.Spec
import proofs.«132154_j83305185673615_1_alg».proof.Proof.KernelValue
import proofs.«132154_j83305185673615_1_alg».proof.Proof.RefValue
import Idealize.ShloMosaic.Adequacy
import Idealize.ShloMosaic.Init

noncomputable section

namespace Cert.Proof

open Idealize.ShloMosaic Idealize.SL.Sem

/-- The word-level kernel runs and leaves its arguments as launched. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- The reference's run, with what it says of the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on `x` and `a`, the kernel ends with its result at `∑ₙ x[b, n] · a[p, n]` (the four
    stretches' partial products accumulated, block by block) and the reference at the same sum taken in one
    contraction. -/
theorem algebraic : Cert.algebraic_KernelIdeal_ReferenceIdeal := by
  intro m ρ m' ρ' _ hagree
  refine ⟨fun c => Cert.KernelIdeal.Step.product m c, Cert.KernelIdeal.Step.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v0_eq, Cert.ReferenceIdeal.Contraction.result_eq, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
